-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x512 : Shape := ⟨3, ![64, 64, 512]⟩
abbrev S64x512x2048 : Shape := ⟨3, ![64, 512, 2048]⟩
abbrev S64x1x2048 : Shape := ⟨3, ![64, 1, 2048]⟩
abbrev S_ : Shape := ⟨0, ![]⟩

class Facts : Prop where
  bcast_S_S64x64x512 : S_.BroadcastsInDim S64x64x512 (![] : Fin 0 → Fin S64x64x512.rank)
  reducesTo_S64x64x512_S_d0_1_2 : S64x64x512.ReducesTo [0, 1, 2] S_
  h_S_ : 0 < S_.numel
  bcast_S_S64x512x2048 : S_.BroadcastsInDim S64x512x2048 (![] : Fin 0 → Fin S64x512x2048.rank)
  reducesTo_S64x512x2048_S_d0_1_2 : S64x512x2048.ReducesTo [0, 1, 2] S_
  bcast_S_S64x1x2048 : S_.BroadcastsInDim S64x1x2048 (![] : Fin 0 → Fin S64x1x2048.rank)
  reducesTo_S64x1x2048_S_d0_1_2 : S64x1x2048.ReducesTo [0, 1, 2] S_

variable [Facts]

def fn_part1 {F : FTy → Type} [FloatOps F] (main_arg4 : FVec F S64x512x2048 .f32) (main_arg5 : FVec F S64x1x2048 .f32) (main_v13 : IVec S_ 1) (main_v16 : IVec S64x512x2048 1) : IVec S_ 1 :=
  let main_c_5 : IVec S_ 1 := constantI S_ 1 1#1
  let main_v17 : IVec S_ 1 := (fun x v => Host.reduce IntOp.andi x v reducesTo_S64x512x2048_S_d0_1_2 h_S_) main_v16 main_c_5
  let main_v18 : IVec S_ 1 := andi main_v13 main_v17
  let main_v19 : FVec F S64x512x2048 .f32 := Host.absf main_arg4
  let main_cst_6 : FVec F S_ .f32 := constant S_ .f32 0x7F800000#32
  let main_v20 : FVec F S64x512x2048 .f32 := broadcastInDim S64x512x2048 ![] bcast_S_S64x512x2048 main_cst_6
  let main_v21 : IVec S64x512x2048 1 := cmpf .olt main_v19 main_v20
  let main_c_7 : IVec S_ 1 := constantI S_ 1 1#1
  let main_v22 : IVec S_ 1 := (fun x v => Host.reduce IntOp.andi x v reducesTo_S64x512x2048_S_d0_1_2 h_S_) main_v21 main_c_7
  let main_v23 : IVec S_ 1 := andi main_v18 main_v22
  let main_v24 : FVec F S64x1x2048 .f32 := Host.absf main_arg5
  let main_cst_8 : FVec F S_ .f32 := constant S_ .f32 0x7F800000#32
  let main_v25 : FVec F S64x1x2048 .f32 := broadcastInDim S64x1x2048 ![] bcast_S_S64x1x2048 main_cst_8
  let main_v26 : IVec S64x1x2048 1 := cmpf .olt main_v24 main_v25
  let main_c_9 : IVec S_ 1 := constantI S_ 1 1#1
  let main_v27 : IVec S_ 1 := (fun x v => Host.reduce IntOp.andi x v reducesTo_S64x1x2048_S_d0_1_2 h_S_) main_v26 main_c_9
  let main_v28 : IVec S_ 1 := andi main_v23 main_v27
  main_v28

def fn {F : FTy → Type} [FloatOps F] (main_arg0 : FVec F S64x64x512 .f32) (main_arg1 : FVec F S64x64x512 .f32) (main_arg2 : FVec F S64x64x512 .f32) (main_arg3 : FVec F S64x512x2048 .f32) (main_arg4 : FVec F S64x512x2048 .f32) (main_arg5 : FVec F S64x1x2048 .f32) : IVec S_ 1 :=
  let main_v0 : FVec F S64x64x512 .f32 := Host.absf main_arg0
  let main_cst : FVec F S_ .f32 := constant S_ .f32 0x7F800000#32
  let main_v1 : FVec F S64x64x512 .f32 := broadcastInDim S64x64x512 ![] bcast_S_S64x64x512 main_cst
  let main_v2 : IVec S64x64x512 1 := cmpf .olt main_v0 main_v1
  let main_c : IVec S_ 1 := constantI S_ 1 1#1
  let main_v3 : IVec S_ 1 := (fun x v => Host.reduce IntOp.andi x v reducesTo_S64x64x512_S_d0_1_2 h_S_) main_v2 main_c
  let main_v4 : FVec F S64x64x512 .f32 := Host.absf main_arg1
  let main_cst_0 : FVec F S_ .f32 := constant S_ .f32 0x7F800000#32
  let main_v5 : FVec F S64x64x512 .f32 := broadcastInDim S64x64x512 ![] bcast_S_S64x64x512 main_cst_0
  let main_v6 : IVec S64x64x512 1 := cmpf .olt main_v4 main_v5
  let main_c_1 : IVec S_ 1 := constantI S_ 1 1#1
  let main_v7 : IVec S_ 1 := (fun x v => Host.reduce IntOp.andi x v reducesTo_S64x64x512_S_d0_1_2 h_S_) main_v6 main_c_1
  let main_v8 : IVec S_ 1 := andi main_v3 main_v7
  let main_v9 : FVec F S64x64x512 .f32 := Host.absf main_arg2
  let main_cst_2 : FVec F S_ .f32 := constant S_ .f32 0x7F800000#32
  let main_v10 : FVec F S64x64x512 .f32 := broadcastInDim S64x64x512 ![] bcast_S_S64x64x512 main_cst_2
  let main_v11 : IVec S64x64x512 1 := cmpf .olt main_v9 main_v10
  let main_c_3 : IVec S_ 1 := constantI S_ 1 1#1
  let main_v12 : IVec S_ 1 := (fun x v => Host.reduce IntOp.andi x v reducesTo_S64x64x512_S_d0_1_2 h_S_) main_v11 main_c_3
  let main_v13 : IVec S_ 1 := andi main_v8 main_v12
  let main_v14 : FVec F S64x512x2048 .f32 := Host.absf main_arg3
  let main_cst_4 : FVec F S_ .f32 := constant S_ .f32 0x7F800000#32
  let main_v15 : FVec F S64x512x2048 .f32 := broadcastInDim S64x512x2048 ![] bcast_S_S64x512x2048 main_cst_4
  let main_v16 : IVec S64x512x2048 1 := cmpf .olt main_v14 main_v15
  fn_part1 (F := F) main_arg4 main_arg5 main_v13 main_v16
-- ==== Kernel.lean ====
abbrev S64x64x512 : Shape := ⟨3, ![64, 64, 512]⟩
abbrev S64x512x2048 : Shape := ⟨3, ![64, 512, 2048]⟩
abbrev S64x1x2048 : Shape := ⟨3, ![64, 1, 2048]⟩
abbrev S1x64x512 : Shape := ⟨3, ![1, 64, 512]⟩
abbrev S1x512x2048 : Shape := ⟨3, ![1, 512, 2048]⟩
abbrev S1x1x2048 : Shape := ⟨3, ![1, 1, 2048]⟩
abbrev S64x512 : Shape := ⟨2, ![64, 512]⟩
abbrev S512x2048 : Shape := ⟨2, ![512, 2048]⟩
abbrev S1x2048 : Shape := ⟨2, ![1, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S64x64x512, .f32⟩
  | .hbm, ⟨1, _⟩ => ⟨S64x64x512, .f32⟩
  | .hbm, ⟨2, _⟩ => ⟨S64x64x512, .f32⟩
  | .hbm, ⟨3, _⟩ => ⟨S64x512x2048, .f32⟩
  | .hbm, ⟨4, _⟩ => ⟨S64x512x2048, .f32⟩
  | .hbm, ⟨5, _⟩ => ⟨S64x1x2048, .f32⟩
  | .hbm, ⟨6, _⟩ => ⟨S64x64x512, .f32⟩
  | .hbm, ⟨7, _⟩ => ⟨S64x64x512, .f32⟩
  | .local _ .vmem, ⟨0, _⟩ => ⟨S1x64x512, .f32⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x64x512, .f32⟩
  | .local _ .vmem, ⟨13, _⟩ => ⟨S1x64x512, .f32⟩
  | .local _ .vmem, ⟨14, _⟩ => ⟨S1x64x512, .f32⟩
  | .local _ .vmem, ⟨15, _⟩ => ⟨S1x64x512, .f32⟩
  | _, _ => ⟨S64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  bitsLt_bf16_f32 : FTy.bits .bf16 < FTy.bits .f32
  broadcasts_S1x2048_S64x2048 : S1x2048.Broadcasts S64x2048
  slices_S64x2048_o0_0_S64x512 : S64x2048.Slices ![0, 0] S64x512
  slices_S64x2048_o0_512_S64x512 : S64x2048.Slices ![0, 512] S64x512
  slices_S64x2048_o0_1024_S64x512 : S64x2048.Slices ![0, 1024] S64x512
  slices_S64x2048_o0_1536_S64x512 : S64x2048.Slices ![0, 1536] S64x512
  shapeCasts_S64x512_S1x64x512 : S64x512.ShapeCasts S1x64x512
  dot_S64x512_S512x2048_S64x2048_1_0_0_1_n_n_wf : DotDims.WF S64x512 S512x2048 S64x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x512.size a ≤ S64x64x512.size a
  hwx0_0 : ∀ i : grid0.Coords, EltTy.bits .f32 = 32 ∨ (Rect.block (s := S64x64x512) S1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S64x64x512.size a
  hwx0_1 : ∀ i : grid0.Coords, EltTy.bits .f32 = 32 ∨ (Rect.block (s := S64x64x512) S1x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512.size a ≤ S64x64x512.size a
  hwx0_2 : ∀ i : grid0.Coords, EltTy.bits .f32 = 32 ∨ (Rect.block (s := S64x64x512) S1x64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S64x512x2048.size a
  hwx0_3 : ∀ i : grid0.Coords, EltTy.bits .f32 = 32 ∨ (Rect.block (s := S64x512x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x512x2048.size a
  hwx0_4 : ∀ i : grid0.Coords, EltTy.bits .f32 = 32 ∨ (Rect.block (s := S64x512x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S64x1x2048.size a
  hwx0_5 : ∀ i : grid0.Coords, EltTy.bits .f32 = 32 ∨ (Rect.block (s := S64x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x512.size a ≤ S64x64x512.size a
  hwx0_6 : ∀ i : grid0.Coords, EltTy.bits .f32 = 32 ∨ (Rect.block (s := S64x64x512) S1x64x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x512.size a ≤ S64x64x512.size a
  hwx0_7 : ∀ i : grid0.Coords, EltTy.bits .f32 = 32 ∨ (Rect.block (s := S64x64x512) S1x64x512.size (cc0_transform_7 i) (hinb0_7 i)).WholeWords (EltTy.packing .f32)

variable [Facts₀]

def dot_S64x512_S512x2048_S64x2048_1_0_0_1_n_n : DotDims S64x512 S512x2048 S64x2048 where
  lhsContracting := [1]
  rhsContracting := [0]
  lhsNonContracting := [0]
  rhsNonContracting := [1]
  lhsBatch := []
  rhsBatch := []
  wf := dot_S64x512_S512x2048_S64x2048_1_0_0_1_n_n_wf

abbrev win0_0 : Pipeline.Window sig grid0 :=
  Pipeline.Window.ofSpec (Memref.whole main_arg0) S1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x64x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x64x512 : Shape := ⟨3, ![64, 64, 512]⟩
abbrev S64x512x2048 : Shape := ⟨3, ![64, 512, 2048]⟩
abbrev S64x1x2048 : Shape := ⟨3, ![64, 1, 2048]⟩
abbrev S64x64x2048 : Shape := ⟨3, ![64, 64, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x64x512, .f32⟩
  | .hbm, ⟨1, _⟩ => ⟨S64x64x512, .f32⟩
  | .hbm, ⟨2, _⟩ => ⟨S64x64x512, .f32⟩
  | .hbm, ⟨3, _⟩ => ⟨S64x512x2048, .f32⟩
  | .hbm, ⟨4, _⟩ => ⟨S64x512x2048, .f32⟩
  | .hbm, ⟨5, _⟩ => ⟨S64x1x2048, .f32⟩
  | .hbm, ⟨6, _⟩ => ⟨S64x64x2048, .f32⟩
  | .hbm, ⟨7, _⟩ => ⟨S64x64x2048, .f32⟩
  | .hbm, ⟨8, _⟩ => ⟨S64x64x2048, .f32⟩
  | .hbm, ⟨9, _⟩ => ⟨S64x64x2048, .f32⟩
  | .hbm, ⟨10, _⟩ => ⟨S64x64x2048, .f32⟩
  | .hbm, ⟨11, _⟩ => ⟨S64x64x512, .f32⟩
  | .hbm, ⟨12, _⟩ => ⟨S64x64x512, .f32⟩
  | .hbm, ⟨13, _⟩ => ⟨S64x64x512, .f32⟩
  | .hbm, ⟨14, _⟩ => ⟨S64x64x512, .f32⟩
  | .hbm, ⟨15, _⟩ => ⟨S64x64x512, .f32⟩
  | .hbm, ⟨16, _⟩ => ⟨S64x64x512, .f32⟩
  | .hbm, ⟨17, _⟩ => ⟨S_, .f32⟩
  | .hbm, ⟨18, _⟩ => ⟨S64x64x512, .f32⟩
  | .hbm, ⟨19, _⟩ => ⟨S64x64x512, .f32⟩
  | .hbm, ⟨20, _⟩ => ⟨S_, .f32⟩
  | .hbm, ⟨21, _⟩ => ⟨S64x64x512, .f32⟩
  | .hbm, ⟨22, _⟩ => ⟨S64x64x512, .f32⟩
  | .hbm, ⟨23, _⟩ => ⟨S64x64x512, .f32⟩
  | .hbm, ⟨24, _⟩ => ⟨S64x64x512, .f32⟩
  | .hbm, ⟨25, _⟩ => ⟨S_, .f32⟩
  | .hbm, ⟨26, _⟩ => ⟨S64x64x512, .f32⟩
  | .hbm, ⟨27, _⟩ => ⟨S64x64x512, .f32⟩
  | .hbm, ⟨28, _⟩ => ⟨S_, .f32⟩
  | .hbm, ⟨29, _⟩ => ⟨S64x64x512, .f32⟩
  | .hbm, ⟨30, _⟩ => ⟨S64x64x512, .f32⟩
  | .hbm, ⟨31, _⟩ => ⟨S64x64x512, .f32⟩
  | .hbm, ⟨32, _⟩ => ⟨S64x64x512, .f32⟩
  | .hbm, ⟨33, _⟩ => ⟨S64x64x512, .f32⟩
  | .hbm, ⟨34, _⟩ => ⟨S64x64x512, .f32⟩
  | .hbm, ⟨35, _⟩ => ⟨S64x64x512, .f32⟩
  | .hbm, ⟨36, _⟩ => ⟨S64x64x512, .f32⟩
  | .hbm, ⟨37, _⟩ => ⟨S_, .f32⟩
  | .hbm, ⟨38, _⟩ => ⟨S64x64x512, .f32⟩
  | .hbm, ⟨39, _⟩ => ⟨S64x64x512, .f32⟩
  | .hbm, ⟨40, _⟩ => ⟨S_, .f32⟩
  | .hbm, ⟨41, _⟩ => ⟨S64x64x512, .f32⟩
  | .hbm, ⟨42, _⟩ => ⟨S64x64x512, .f32⟩
  | .hbm, ⟨43, _⟩ => ⟨S64x64x512, .f32⟩
  | .hbm, ⟨44, _⟩ => ⟨S64x64x512, .f32⟩
  | _, _ => ⟨S64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S64x1x2048_S64x64x2048_0_1_2 : S64x1x2048.BroadcastsInDim S64x64x2048 (![0, 1, 2] : Fin 3 → Fin S64x64x2048.rank)
  slices_S64x64x2048_S64x64x512_0_0_0 : S64x64x2048.Slices ![0, 0, 0] S64x64x512
  slices_S64x64x2048_S64x64x512_0_0_512 : S64x64x2048.Slices ![0, 0, 512] S64x64x512
  slices_S64x64x2048_S64x64x512_0_0_1024 : S64x64x2048.Slices ![0, 0, 1024] S64x64x512
  slices_S64x64x2048_S64x64x512_0_0_1536 : S64x64x2048.Slices ![0, 0, 1536] S64x64x512
  bcast_S_S64x64x512 : S_.BroadcastsInDim S64x64x512 (![] : Fin 0 → Fin S64x64x512.rank)
  dot_S64x64x512_S64x512x2048_S64x64x2048_2_1_1_2_0_0_wf : DotDims.WF S64x64x512 S64x512x2048 S64x64x2048 [2] [1] [1] [2] [0] [0]

variable [Facts₀]

def dot_S64x64x512_S64x512x2048_S64x64x2048_2_1_1_2_0_0 : DotDims S64x64x512 S64x512x2048 S64x64x2048 where
  lhsContracting := [2]
  rhsContracting := [1]
  lhsNonContracting := [1]
  rhsNonContracting := [2]
  lhsBatch := [0]
  rhsBatch := [0]
  wf := dot_S64x64x512_S64x512x2048_S64x64x2048_2_1_1_2_0_0_wf

class Facts : Prop extends Facts₀ where

variable [Facts]
-- ==== Proof.CellSpec.lean ====
/-
  One step of 64 independent LSTM cells, stated once on the extended reals.

  Model `t` has an input row block `x[t]` and a hidden state `h[t]` of shape [64, 512] (64 batch rows, 512
  features), a cell state `c[t]` of the same shape, two weight matrices `k[t]`, `rk[t]` of shape [512, 2048] and a bias
  row `b[t]` of 2048 entries. The 2048 columns are four gates of 512 columns each, in the order input, forget,
  candidate, output.

  The pre-activation of row `r` and column `u` is
      z[t, r, u] = Σ_d x[t, r, d] · k[t, d, u]  +  Σ_d h[t, r, d] · rk[t, d, u]  +  b[t, 0, u],
  the new cell state is
      c'[t, r, j] = σ(z[t, r, 512 + j]) · c[t, r, j]  +  σ(z[t, r, j]) · tanh(z[t, r, 1024 + j]),
  and the new hidden state is
      h'[t, r, j] = σ(z[t, r, 1536 + j]) · tanh(c'[t, r, j]),
  where σ is the logistic function 1 / (1 + e^(-z)).

  Everything is an extended real; sums are finite sums over the 512 contracted features. No law used anywhere below
  needs an entry to be finite: both programs form these same sums, in this same grouping.
-/
import Idealize.ShloMosaic.PureOps.Ideal
import Idealize.ShloMosaic.PureOps.Ideal.Laws
import Idealize.ShloMosaic.PureOps.IdealRules
import Idealize.ShloMosaic.Lib.ValueIdx

noncomputable section

namespace Cert.LstmCell

open Idealize.ShloMosaic Idealize.ShloMosaic.ValueIdx

/-- Activations and states: 64 models × 64 batch rows × 512 features. -/
abbrev Act : Shape := ⟨3, ![64, 64, 512]⟩
/-- Weights: 64 models × 512 contracted features × 2048 gate columns. -/
abbrev Wgt : Shape := ⟨3, ![64, 512, 2048]⟩
/-- Biases: 64 models × one row × 2048 gate columns. -/
abbrev Bia : Shape := ⟨3, ![64, 1, 2048]⟩

/-- Column `j` of the input gate. -/
abbrev colI (j : Fin 512) : Fin 2048 := ⟨j.val, by have := j.isLt; omega⟩
/-- Column `j` of the forget gate. -/
abbrev colF (j : Fin 512) : Fin 2048 := ⟨512 + j.val, by have := j.isLt; omega⟩
/-- Column `j` of the candidate. -/
abbrev colG (j : Fin 512) : Fin 2048 := ⟨1024 + j.val, by have := j.isLt; omega⟩
/-- Column `j` of the output gate. -/
abbrev colO (j : Fin 512) : Fin 2048 := ⟨1536 + j.val, by have := j.isLt; omega⟩

/-- The pre-activation `z[t, r, u]`: the two contractions over the 512 features, added, plus the bias entry. -/
def preact (x h : Act.Idx → EReal) (k rk : Wgt.Idx → EReal) (b : Bia.Idx → EReal) (t r : Fin 64) (u : Fin 2048) : EReal :=
  ((∑ d : Fin 512, x (ix3 t r d) * k (ix3 t d u)) + (∑ d : Fin 512, h (ix3 t r d) * rk (ix3 t d u))) + b (ix3 t (0 : Fin 1) u)

/-- The new cell state `c'[t, r, j]`. -/
def cellNext (x h c : Act.Idx → EReal) (k rk : Wgt.Idx → EReal) (b : Bia.Idx → EReal) (t r : Fin 64) (j : Fin 512) : EReal :=
  Ideal.logistic (preact x h k rk b t r (colF j)) * c (ix3 t r j)
    + Ideal.logistic (preact x h k rk b t r (colI j)) * Ideal.tanh (preact x h k rk b t r (colG j))

/-- The new hidden state `h'[t, r, j]`. -/
def hiddenNext (x h c : Act.Idx → EReal) (k rk : Wgt.Idx → EReal) (b : Bia.Idx → EReal) (t r : Fin 64) (j : Fin 512) : EReal :=
  Ideal.logistic (preact x h k rk b t r (colO j)) * Ideal.tanh (cellNext x h c k rk b t r j)

/-- The new cell states of all models as one array. -/
def cellArr (x h c : Act.Idx → EReal) (k rk : Wgt.Idx → EReal) (b : Bia.Idx → EReal) : Act.Idx → EReal :=
  fun i => cellNext x h c k rk b (i 0) (i 1) (i 2)

/-- The new hidden states of all models as one array. -/
def hiddenArr (x h c : Act.Idx → EReal) (k rk : Wgt.Idx → EReal) (b : Bia.Idx → EReal) : Act.Idx → EReal :=
  fun i => hiddenNext x h c k rk b (i 0) (i 1) (i 2)

/-- The single-precision word of 1.0 denotes the real number 1. -/
theorem one_f32 : Ideal.ofBits .f32 0x3F800000#32 = 1 := IdealRules.sign_bit.ideal_onePat .f32

/-- The logistic function written out with the word of 1.0 for its two ones: `1 / (1 + e^(-z))`. -/
theorem logistic_spelled (z : EReal) :
    Ideal.div (Ideal.ofBits .f32 0x3F800000#32) (Ideal.ofBits .f32 0x3F800000#32 + Ideal.exp (-z)) = Ideal.logistic z := by
  rw [one_f32]; rfl

end Cert.LstmCell

end
-- ==== Proof.RefIsSpec.lean ====
/-
  The reference computes the specification.

  Read one host operation at a time, the reference forms the pre-activation `z` as two batched contractions over the 512
  features, added, plus the bias row broadcast over the 64 batch rows; slices `z` into its four gates of 512 columns;
  applies `1 / (1 + e^(-·))` to three of them and `tanh` to the fourth; and combines them with the old cell state. Index by
  index that is `cellNext` and `hiddenNext`: the contractions are the two sums of `preact`, the slice at offset `o` reads
  column `o + j`, and the spelled-out quotient is the logistic function.
-/
import proofs.«171165_j75385265979695_2_alg».proof.Proof.Gen.ReferenceIdeal.Read
import proofs.«171165_j75385265979695_2_alg».proof.Proof.CellSpec

noncomputable section

namespace Cert.LstmCell.Ref

open Cert.ReferenceIdeal Cert.ReferenceIdeal.Read Cert.LstmCell
open Idealize.ShloMosaic Idealize.ShloMosaic.ValueIdx

variable (x0 x1 x2 : FVec Ideal S64x64x512 .f32) (x3 x4 : FVec Ideal S64x512x2048 .f32) (x5 : FVec Ideal S64x1x2048 .f32)

/-- The reference's pre-activation stage at `(t, r, u)` is `preact`. -/
theorem preact_eq (t r : Fin 64) (u : Fin 2048) :
    val_main_v4 (F := Ideal) x0 x1 x3 x4 x5 (ix3 t r u) = preact x0 x1 x3 x4 x5 t r u := by
  have el0 : ∀ k : Fin 512, lidx_main_v0 (ix3 t r u) k = ix3 t r k := fun k => funext fun a =>
    Fin.ext (by match a with | ⟨0, _⟩ => rfl | ⟨1, _⟩ => rfl | ⟨2, _⟩ => rfl)
  have er0 : ∀ k : Fin 512, ridx_main_v0 (ix3 t r u) k = ix3 t k u := fun k => funext fun a =>
    Fin.ext (by match a with | ⟨0, _⟩ => rfl | ⟨1, _⟩ => rfl | ⟨2, _⟩ => rfl)
  have el1 : ∀ k : Fin 512, lidx_main_v1 (ix3 t r u) k = ix3 t r k := fun k => funext fun a =>
    Fin.ext (by match a with | ⟨0, _⟩ => rfl | ⟨1, _⟩ => rfl | ⟨2, _⟩ => rfl)
  have er1 : ∀ k : Fin 512, ridx_main_v1 (ix3 t r u) k = ix3 t k u := fun k => funext fun a =>
    Fin.ext (by match a with | ⟨0, _⟩ => rfl | ⟨1, _⟩ => rfl | ⟨2, _⟩ => rfl)
  have eb : idx_main_v3 (ix3 t r u) = ix3 t (0 : Fin 1) u := funext fun a =>
    Fin.ext (by match a with | ⟨0, _⟩ => rfl | ⟨1, _⟩ => rfl | ⟨2, _⟩ => rfl)
  rw [val_main_v4_apply, val_main_v2_apply, val_main_v0_apply, val_main_v1_apply, val_main_v3_apply]
  simp only [el0, er0, el1, er1, eb]
  rfl

/-- A slice of the pre-activation at column offset 0 reads the input gate's column. -/
theorem sliceI (t r : Fin 64) (j : Fin 512) : idx_main_v5 (ix3 t r j) = ix3 t r (colI j) := funext fun a =>
  Fin.ext (by match a with | ⟨0, _⟩ => rfl | ⟨1, _⟩ => rfl | ⟨2, _⟩ => rfl)
/-- At offset 512, the forget gate's. -/
theorem sliceF (t r : Fin 64) (j : Fin 512) : idx_main_v6 (ix3 t r j) = ix3 t r (colF j) := funext fun a =>
  Fin.ext (by match a with | ⟨0, _⟩ => rfl | ⟨1, _⟩ => rfl | ⟨2, _⟩ => rfl)
/-- At offset 1024, the candidate's. -/
theorem sliceG (t r : Fin 64) (j : Fin 512) : idx_main_v7 (ix3 t r j) = ix3 t r (colG j) := funext fun a =>
  Fin.ext (by match a with | ⟨0, _⟩ => rfl | ⟨1, _⟩ => rfl | ⟨2, _⟩ => rfl)
/-- At offset 1536, the output gate's. -/
theorem sliceO (t r : Fin 64) (j : Fin 512) : idx_main_v8 (ix3 t r j) = ix3 t r (colO j) := funext fun a =>
  Fin.ext (by match a with | ⟨0, _⟩ => rfl | ⟨1, _⟩ => rfl | ⟨2, _⟩ => rfl)

/-- The reference's new cell state at `(t, r, j)` is `cellNext`. -/
theorem cell_apply (t r : Fin 64) (j : Fin 512) :
    val_main_v24 (F := Ideal) x0 x1 x2 x3 x4 x5 (ix3 t r j) = cellNext x0 x1 x2 x3 x4 x5 t r j := by
  simp only [val_main_v24_apply, val_main_v21_apply, val_main_v23_apply, val_main_v20_apply, val_main_v19_apply,
    val_main_v18_apply, val_main_v17_apply, val_main_v16_apply, val_main_v15_apply, val_main_v6_apply,
    val_main_v14_apply, val_main_v13_apply, val_main_v12_apply, val_main_v11_apply, val_main_v10_apply,
    val_main_v9_apply, val_main_v5_apply, val_main_v22_apply, val_main_v7_apply,
    val_main_cst_apply, val_main_cst_0_apply, val_main_cst_1_apply, val_main_cst_2_apply,
    sliceI, sliceF, sliceG, preact_eq]
  simp only [Ideal.addf_def, Ideal.mulf_def, Ideal.hostDivf_def, Ideal.hostUnary_exp_def, Ideal.hostNegf_def,
    Ideal.negf_def, Ideal.hostUnary_tanh_def, Ideal.ofBits_def, logistic_spelled]
  rfl

/-- The reference's new hidden state at `(t, r, j)` is `hiddenNext`. -/
theorem hidden_apply (t r : Fin 64) (j : Fin 512) :
    val_main_v32 (F := Ideal) x0 x1 x2 x3 x4 x5 (ix3 t r j) = hiddenNext x0 x1 x2 x3 x4 x5 t r j := by
  simp only [val_main_v32_apply, val_main_v30_apply, val_main_v29_apply, val_main_v28_apply, val_main_v27_apply,
    val_main_v26_apply, val_main_v25_apply, val_main_v8_apply, val_main_v31_apply,
    val_main_cst_3_apply, val_main_cst_4_apply, sliceO, preact_eq, cell_apply]
  simp only [Ideal.addf_def, Ideal.mulf_def, Ideal.hostDivf_def, Ideal.hostUnary_exp_def, Ideal.hostNegf_def,
    Ideal.negf_def, Ideal.hostUnary_tanh_def, Ideal.ofBits_def, logistic_spelled]
  rfl

/-- The reference's new cell states, as an array, are `cellArr`. -/
theorem cell_eq : val_main_v24 (F := Ideal) x0 x1 x2 x3 x4 x5 = cellArr x0 x1 x2 x3 x4 x5 := by
  funext i
  obtain ⟨t, r, j, rfl⟩ : ∃ (t r : Fin 64) (j : Fin 512), i = ix3 t r j := ⟨i 0, i 1, i 2, eq_ix3 i⟩
  exact cell_apply x0 x1 x2 x3 x4 x5 t r j

/-- The reference's new hidden states, as an array, are `hiddenArr`. -/
theorem hidden_eq : val_main_v32 (F := Ideal) x0 x1 x2 x3 x4 x5 = hiddenArr x0 x1 x2 x3 x4 x5 := by
  funext i
  obtain ⟨t, r, j, rfl⟩ : ∃ (t r : Fin 64) (j : Fin 512), i = ix3 t r j := ⟨i 0, i 1, i 2, eq_ix3 i⟩
  exact hidden_apply x0 x1 x2 x3 x4 x5 t r j

end Cert.LstmCell.Ref

end
-- ==== Proof.KernelPreact.lean ====
/-
  The kernel's pre-activation, read at an index.

  At one grid point the body holds one model's blocks: the input and hidden rows `X`, `H` as [1, 64, 512] blocks, the two
  weight matrices `K`, `RK` as [1, 512, 2048] blocks and the bias row `B` as a [1, 1, 2048] block. It drops each block's
  leading unit axis, multiplies `X` by `K` and `H` by `RK` into zero accumulators, adds the two products and adds the bias row
  broadcast over the 64 batch rows. A change of float format is the identity on the extended reals, and a matrix product
  into a zero accumulator is the plain sum over the 512 contracted features, so entry `(r, u)` of the result is
      Σ_d X[0, r, d] · K[0, d, u]  +  Σ_d H[0, r, d] · RK[0, d, u]  +  B[0, 0, u].
-/
import proofs.«171165_j75385265979695_2_alg».proof.Proof.Gen.KernelIdeal.Skeleton
import proofs.«171165_j75385265979695_2_alg».proof.Proof.CellSpec
import Idealize.ShloMosaic.Lib.Pipeline.Value
import Idealize.ShloMosaic.Lib.ValueIdx
import Idealize.ShloMosaic.PureOps.Ideal.Laws

noncomputable section

namespace Cert.LstmCell.Kern

open Cert.KernelIdeal Cert.KernelIdeal.Gen Cert.LstmCell
open Idealize.ShloMosaic Idealize.ShloMosaic.ValueIdx

/-- Dropping the unit axis of a [1, 64, 512] block: entry `(r, d)` is the block's `(0, r, d)`. -/
theorem rows_apply (P : Vec Ideal S1x64x512 .f32) (r : Fin 64) (d : Fin 512) :
    shapeCast S64x512 P shapeCasts_S1x64x512_S64x512 (ix2 r d) = P (ix3 (0 : Fin 1) r d) :=
  shapeCast_apply _ _ (ix2 r d) (ix3 (0 : Fin 1) r d) (by
    rw [Shape.rowMajor_val_three, Shape.rowMajor_val_two]
    show ((0 : Nat) * 64 + r.val) * 512 + d.val = r.val * 512 + d.val
    omega)

/-- Dropping the unit axis of a [1, 512, 2048] block: entry `(d, u)` is the block's `(0, d, u)`. -/
theorem weights_apply (P : Vec Ideal S1x512x2048 .f32) (d : Fin 512) (u : Fin 2048) :
    shapeCast S512x2048 P shapeCasts_S1x512x2048_S512x2048 (ix2 d u) = P (ix3 (0 : Fin 1) d u) :=
  shapeCast_apply _ _ (ix2 d u) (ix3 (0 : Fin 1) d u) (by
    rw [Shape.rowMajor_val_three, Shape.rowMajor_val_two]
    show ((0 : Nat) * 512 + d.val) * 2048 + u.val = d.val * 2048 + u.val
    omega)

/-- Dropping the leading unit axis of the [1, 1, 2048] bias block: entry `(0, u)` is the block's `(0, 0, u)`. -/
theorem biasRow_apply (P : Vec Ideal S1x1x2048 .f32) (u : Fin 2048) :
    shapeCast S1x2048 P shapeCasts_S1x1x2048_S1x2048 (ix2 (0 : Fin 1) u) = P (ix3 (0 : Fin 1) (0 : Fin 1) u) :=
  shapeCast_apply _ _ (ix2 (0 : Fin 1) u) (ix3 (0 : Fin 1) (0 : Fin 1) u) (by
    rw [Shape.rowMajor_val_three, Shape.rowMajor_val_two]
    show ((0 : Nat) * 1 + 0) * 2048 + u.val = 0 * 2048 + u.val
    omega)

/-- The bias row broadcast over the 64 batch rows: entry `(r, u)` is the row's entry `u`. -/
theorem biasBcast_apply (v : FVec Ideal S1x2048 .f32) (r : Fin 64) (u : Fin 2048) :
    broadcastTo S64x2048 v broadcasts_S1x2048_S64x2048 (ix2 r u) = v (ix2 (0 : Fin 1) u) :=
  broadcastTo_apply v broadcasts_S1x2048_S64x2048 (ix2 r u) (ix2 (0 : Fin 1) u) (fun a => match a with
    | ⟨0, _⟩ => by show (0 : Nat) = if (1 : Nat) = 1 then 0 else r.val; rw [if_pos rfl]
    | ⟨1, _⟩ => by show u.val = if (2048 : Nat) = 1 then 0 else u.val; rw [if_neg (by decide)])

/-- The left factor is read in the output's row: its non-contracted coordinate is the output index's first. -/
theorem lhs_row (j : S64x2048.Idx) (q : dot_S64x512_S512x2048_S64x2048_1_0_0_1_n_n.contr.Idx) :
    (dot_S64x512_S512x2048_S64x2048_1_0_0_1_n_n.lhsIdx j q 0).val = (j 0).val := by
  unfold DotDims.lhsIdx
  rw [dif_neg (show ¬(0 : Fin S64x512.rank) ∈ dot_S64x512_S512x2048_S64x2048_1_0_0_1_n_n.lhsBatch by decide),
    dif_pos (show (0 : Fin S64x512.rank) ∈ dot_S64x512_S512x2048_S64x2048_1_0_0_1_n_n.lhsNonContracting by decide)]
  rfl

/-- The right factor is read in the output's column: its non-contracted coordinate is the output index's second. -/
theorem rhs_col (j : S64x2048.Idx) (q : dot_S64x512_S512x2048_S64x2048_1_0_0_1_n_n.contr.Idx) :
    (dot_S64x512_S512x2048_S64x2048_1_0_0_1_n_n.rhsIdx j q 1).val = (j 1).val := by
  unfold DotDims.rhsIdx
  rw [dif_neg (show ¬(1 : Fin S512x2048.rank) ∈ dot_S64x512_S512x2048_S64x2048_1_0_0_1_n_n.rhsBatch by decide),
    dif_pos (show (1 : Fin S512x2048.rank) ∈ dot_S64x512_S512x2048_S64x2048_1_0_0_1_n_n.rhsNonContracting by decide)]
  rfl

/-- A [64, 512] by [512, 2048] product into a zero accumulator, on the extended reals: entry `(r, u)` is the sum over the
    512 contracted features of row `r` of the left factor times column `u` of the right. -/
theorem product_apply (A : FVec Ideal S64x512 .bf16) (W : FVec Ideal S512x2048 .bf16) (r : Fin 64) (u : Fin 2048) :
    matmul dot_S64x512_S512x2048_S64x2048_1_0_0_1_n_n none A W (constant (F := Ideal) S64x2048 .f32 0x00000000#32) (ix2 r u)
      = ∑ d : Fin 512, A (ix2 r d) * W (ix2 d u) := by
  show FloatOps.matmul dot_S64x512_S512x2048_S64x2048_1_0_0_1_n_n none A W (constant (F := Ideal) S64x2048 .f32 0x00000000#32) (ix2 r u) = _
  rw [Ideal.matmul_constant_zero_apply, ← Equiv.sum_comp (contrEquiv1 dot_S64x512_S512x2048_S64x2048_1_0_0_1_n_n 512 rfl rfl).symm]
  refine Finset.sum_congr rfl fun d _ => ?_
  have hd := contrEquiv1_symm_val dot_S64x512_S512x2048_S64x2048_1_0_0_1_n_n 512 rfl rfl d
  have el : dot_S64x512_S512x2048_S64x2048_1_0_0_1_n_n.lhsIdx (ix2 r u) ((contrEquiv1 dot_S64x512_S512x2048_S64x2048_1_0_0_1_n_n 512 rfl rfl).symm d) = ix2 r d :=
    funext fun a => Fin.ext (by
      match a with
      | ⟨0, _⟩ => exact lhs_row _ _
      | ⟨1, _⟩ => exact (dot_S64x512_S512x2048_S64x2048_1_0_0_1_n_n.lhsIdx_val_of_single rfl _ _).trans hd)
  have er : dot_S64x512_S512x2048_S64x2048_1_0_0_1_n_n.rhsIdx (ix2 r u) ((contrEquiv1 dot_S64x512_S512x2048_S64x2048_1_0_0_1_n_n 512 rfl rfl).symm d) = ix2 d u :=
    funext fun a => Fin.ext (by
      match a with
      | ⟨0, _⟩ => exact (dot_S64x512_S512x2048_S64x2048_1_0_0_1_n_n.rhsIdx_val_of_single rfl _ _).trans hd
      | ⟨1, _⟩ => exact rhs_col _ _)
  rw [el, er]

/-- The pre-activation payload at `(r, u)`: the two contractions over the 512 features, added, plus the bias entry. -/
theorem preact_payload (X H : Vec Ideal S1x64x512 .f32) (K RK : Vec Ideal S1x512x2048 .f32) (B : Vec Ideal S1x1x2048 .f32)
    (r : Fin 64) (u : Fin 2048) :
    k0_pay3 (F := Ideal) X H K RK B (ix2 r u)
      = ((∑ d : Fin 512, X (ix3 (0 : Fin 1) r d) * K (ix3 (0 : Fin 1) d u))
          + (∑ d : Fin 512, H (ix3 (0 : Fin 1) r d) * RK (ix3 (0 : Fin 1) d u)))
        + B (ix3 (0 : Fin 1) (0 : Fin 1) u) := by
  unfold k0_pay3
  show (matmul dot_S64x512_S512x2048_S64x2048_1_0_0_1_n_n none _ _ (constant (F := Ideal) S64x2048 .f32 0x00000000#32) (ix2 r u)
        + matmul dot_S64x512_S512x2048_S64x2048_1_0_0_1_n_n none _ _ (constant (F := Ideal) S64x2048 .f32 0x00000000#32) (ix2 r u))
      + broadcastTo S64x2048 _ broadcasts_S1x2048_S64x2048 (ix2 r u) = _
  refine congrArg₂ (· + ·) (congrArg₂ (· + ·) ?_ ?_) ?_
  · refine (product_apply _ _ r u).trans (Finset.sum_congr rfl fun d _ => ?_)
    exact congrArg₂ (· * ·) (rows_apply X r d) (weights_apply K d u)
  · refine (product_apply _ _ r u).trans (Finset.sum_congr rfl fun d _ => ?_)
    exact congrArg₂ (· * ·) (rows_apply H r d) (weights_apply RK d u)
  · exact (biasBcast_apply _ r u).trans (biasRow_apply B u)

/-- When the five blocks are model `t`'s slabs of the whole arrays — rows of `x` and `h`, the two weight matrices, the bias
    row — the payload at `(r, u)` is the specification's pre-activation `z[t, r, u]`. -/
theorem preact_point (X H : Vec Ideal S1x64x512 .f32) (K RK : Vec Ideal S1x512x2048 .f32) (B : Vec Ideal S1x1x2048 .f32)
    (x h : Act.Idx → EReal) (k rk : Wgt.Idx → EReal) (b : Bia.Idx → EReal) (t : Fin 64)
    (hX : ∀ (r : Fin 64) (d : Fin 512), X (ix3 (0 : Fin 1) r d) = x (ix3 t r d))
    (hH : ∀ (r : Fin 64) (d : Fin 512), H (ix3 (0 : Fin 1) r d) = h (ix3 t r d))
    (hK : ∀ (d : Fin 512) (u : Fin 2048), K (ix3 (0 : Fin 1) d u) = k (ix3 t d u))
    (hRK : ∀ (d : Fin 512) (u : Fin 2048), RK (ix3 (0 : Fin 1) d u) = rk (ix3 t d u))
    (hB : ∀ u : Fin 2048, B (ix3 (0 : Fin 1) (0 : Fin 1) u) = b (ix3 t (0 : Fin 1) u))
    (r : Fin 64) (u : Fin 2048) :
    k0_pay3 (F := Ideal) X H K RK B (ix2 r u) = preact x h k rk b t r u := by
  rw [preact_payload]
  unfold preact
  simp only [hX, hH, hK, hRK, hB]

end Cert.LstmCell.Kern

end
-- ==== Proof.KernelBlocks.lean ====
/-
  From one grid point to the whole arrays.

  The grid has 64 points, one per model. At point `t` every window's block is model `t`'s slab of its array: block index
  `(t, 0, 0)`, so block entry `(0, a, b)` is array entry `(t, a, b)`. The body's two stores cover their blocks, so what
  point `t` writes back to the hidden-state array is `h'[t, ·, ·]` and to the cell-state array `c'[t, ·, ·]` of the
  specification; the 64 slabs tile each output array (entry `(t, r, j)` lies in point `t`'s block), so after the run the two
  output arrays are `hiddenArr` and `cellArr` of the argument arrays.
-/
import proofs.«171165_j75385265979695_2_alg».proof.Proof.Gen.KernelIdeal.Value
import proofs.«171165_j75385265979695_2_alg».proof.Proof.CellSpec
import proofs.«171165_j75385265979695_2_alg».proof.Proof.KernelPreact
import Idealize.ShloMosaic.Lib.Pipeline.Value
import Idealize.ShloMosaic.Lib.ValueIdx

noncomputable section

namespace Cert.LstmCell.Kern

open Cert.KernelIdeal Cert.KernelIdeal.Gen Cert.KernelIdeal.Value Cert.LstmCell
open Idealize.ShloMosaic Idealize.ShloMosaic.TcCoe Idealize.ShloMosaic.ValueIdx Idealize.SL.Sem
open Idealize.ShloMosaic.Pipeline (Dat)

/-! ## One point's stores, over arbitrary blocks -/

theorem zero3 : (![0, 0, 0] : Fin 3 → Nat) = fun _ => 0 := funext fun a => by fin_cases a <;> rfl

/-- The hidden-state store leaves in its block the generated index-by-index function of the six loaded blocks. -/
theorem hiddenBlock_eq (X H C : Vec Ideal S1x64x512 .f32) (K RK : Vec Ideal S1x512x2048 .f32) (B : Vec Ideal S1x1x2048 .f32)
    (y : S1x64x512.Idx) : out0_6 X H C K RK B y = E6 X H K RK B C y := by
  unfold out0_6
  simp only [View.ld_unit_zero (S := S1x64x512) zero3, View.ld_unit_zero (S := S1x512x2048) zero3,
    View.ld_unit_zero (S := S1x1x2048) zero3]
  exact canon6_eq X H K RK B C y

/-- The cell-state store likewise. -/
theorem cellBlock_eq (X H C : Vec Ideal S1x64x512 .f32) (K RK : Vec Ideal S1x512x2048 .f32) (B : Vec Ideal S1x1x2048 .f32)
    (y : S1x64x512.Idx) : out0_7 X H C K RK B y = E7 X H K RK B C y := by
  unfold out0_7
  simp only [View.ld_unit_zero (S := S1x64x512) zero3, View.ld_unit_zero (S := S1x512x2048) zero3,
    View.ld_unit_zero (S := S1x1x2048) zero3]
  exact canon7_eq X H K RK B C y

/-- Block entry `(0, r, j)` reads the pre-activation in row `r` at column `j` of the output gate, -/
theorem ixO (r : Fin 64) (j : Fin 512) : ix6_0 (ix3 (0 : Fin 1) r j) = ix2 r (colO j) := funext fun a => Fin.ext (by
  match a with | ⟨0, _⟩ => rfl | ⟨1, _⟩ => show j.val + 1536 = 1536 + j.val; omega)
/-- of the forget gate, -/
theorem ixF (r : Fin 64) (j : Fin 512) : ix6_1 (ix3 (0 : Fin 1) r j) = ix2 r (colF j) := funext fun a => Fin.ext (by
  match a with | ⟨0, _⟩ => rfl | ⟨1, _⟩ => show j.val + 512 = 512 + j.val; omega)
/-- of the input gate, -/
theorem ixI (r : Fin 64) (j : Fin 512) : ix6_3 (ix3 (0 : Fin 1) r j) = ix2 r (colI j) := funext fun a => Fin.ext (by
  match a with | ⟨0, _⟩ => rfl | ⟨1, _⟩ => rfl)
/-- of the candidate, -/
theorem ixG (r : Fin 64) (j : Fin 512) : ix6_4 (ix3 (0 : Fin 1) r j) = ix2 r (colG j) := funext fun a => Fin.ext (by
  match a with | ⟨0, _⟩ => rfl | ⟨1, _⟩ => show j.val + 1024 = 1024 + j.val; omega)
/-- and the old cell state at `(0, r, j)`. -/
theorem ixC (r : Fin 64) (j : Fin 512) : ix6_2 (ix3 (0 : Fin 1) r j) = ix3 (0 : Fin 1) r j := funext fun a => Fin.ext (by
  match a with | ⟨0, _⟩ => rfl | ⟨1, _⟩ => rfl | ⟨2, _⟩ => rfl)

/-- The same reads for the cell-state store. -/
theorem ixF' (r : Fin 64) (j : Fin 512) : ix7_0 (ix3 (0 : Fin 1) r j) = ix2 r (colF j) := funext fun a => Fin.ext (by
  match a with | ⟨0, _⟩ => rfl | ⟨1, _⟩ => show j.val + 512 = 512 + j.val; omega)
theorem ixC' (r : Fin 64) (j : Fin 512) : ix7_1 (ix3 (0 : Fin 1) r j) = ix3 (0 : Fin 1) r j := funext fun a => Fin.ext (by
  match a with | ⟨0, _⟩ => rfl | ⟨1, _⟩ => rfl | ⟨2, _⟩ => rfl)
theorem ixI' (r : Fin 64) (j : Fin 512) : ix7_2 (ix3 (0 : Fin 1) r j) = ix2 r (colI j) := funext fun a => Fin.ext (by
  match a with | ⟨0, _⟩ => rfl | ⟨1, _⟩ => rfl)
theorem ixG' (r : Fin 64) (j : Fin 512) : ix7_3 (ix3 (0 : Fin 1) r j) = ix2 r (colG j) := funext fun a => Fin.ext (by
  match a with | ⟨0, _⟩ => rfl | ⟨1, _⟩ => show j.val + 1024 = 1024 + j.val; omega)

section Point
variable (X H C : Vec Ideal S1x64x512 .f32) (K RK : Vec Ideal S1x512x2048 .f32) (B : Vec Ideal S1x1x2048 .f32)
  (x h c : Act.Idx → EReal) (k rk : Wgt.Idx → EReal) (b : Bia.Idx → EReal) (t : Fin 64)
  (hX : ∀ (r : Fin 64) (d : Fin 512), X (ix3 (0 : Fin 1) r d) = x (ix3 t r d))
  (hH : ∀ (r : Fin 64) (d : Fin 512), H (ix3 (0 : Fin 1) r d) = h (ix3 t r d))
  (hC : ∀ (r : Fin 64) (j : Fin 512), C (ix3 (0 : Fin 1) r j) = c (ix3 t r j))
  (hK : ∀ (d : Fin 512) (u : Fin 2048), K (ix3 (0 : Fin 1) d u) = k (ix3 t d u))
  (hRK : ∀ (d : Fin 512) (u : Fin 2048), RK (ix3 (0 : Fin 1) d u) = rk (ix3 t d u))
  (hB : ∀ u : Fin 2048, B (ix3 (0 : Fin 1) (0 : Fin 1) u) = b (ix3 t (0 : Fin 1) u))
include hX hH hC hK hRK hB

/-- When the six blocks are model `t`'s slabs, the cell-state store's block at `(0, r, j)` is `c'[t, r, j]`. -/
theorem cell_point (r : Fin 64) (j : Fin 512) :
    out0_7 X H C K RK B (ix3 (0 : Fin 1) r j) = cellNext x h c k rk b t r j := by
  rw [cellBlock_eq]
  show FloatOps.addf (FloatOps.mulf (FloatOps.logistic (k0_pay3 X H K RK B (ix7_0 (ix3 (0 : Fin 1) r j)))) (C (ix7_1 (ix3 (0 : Fin 1) r j))))
      (FloatOps.mulf (FloatOps.logistic (k0_pay3 X H K RK B (ix7_2 (ix3 (0 : Fin 1) r j)))) (FloatOps.tanh (k0_pay3 X H K RK B (ix7_3 (ix3 (0 : Fin 1) r j))))) = _
  rw [ixF', ixC', ixI', ixG']
  simp only [preact_point X H K RK B x h k rk b t hX hH hK hRK hB, hC]
  rfl

/-- and the hidden-state store's block at `(0, r, j)` is `h'[t, r, j]`. -/
theorem hidden_point (r : Fin 64) (j : Fin 512) :
    out0_6 X H C K RK B (ix3 (0 : Fin 1) r j) = hiddenNext x h c k rk b t r j := by
  rw [hiddenBlock_eq]
  show FloatOps.mulf (FloatOps.logistic (k0_pay3 X H K RK B (ix6_0 (ix3 (0 : Fin 1) r j))))
      (FloatOps.tanh (FloatOps.addf (FloatOps.mulf (FloatOps.logistic (k0_pay3 X H K RK B (ix6_1 (ix3 (0 : Fin 1) r j)))) (C (ix6_2 (ix3 (0 : Fin 1) r j))))
        (FloatOps.mulf (FloatOps.logistic (k0_pay3 X H K RK B (ix6_3 (ix3 (0 : Fin 1) r j)))) (FloatOps.tanh (k0_pay3 X H K RK B (ix6_4 (ix3 (0 : Fin 1) r j))))))) = _
  rw [ixO, ixF, ixC, ixI, ixG]
  simp only [preact_point X H K RK B x h k rk b t hX hH hK hRK hB, hC]
  rfl

end Point

/-! ## The blocks at a grid point are model `t`'s slabs -/

variable (m : (ℓ : Loc nD τ sig) → Buf (Elt Ideal) ℓ) (ρ : Dev nD → PrngReg)

/-- Every window's block index at point `t` is `(t, 0, 0)`: decided over the 64 points. -/
theorem index0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem index0_1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem index0_2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem index0_3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)
theorem index0_4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem index0_5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)
theorem index0_6 : ∀ t : Fin cfg0.N, win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0)
theorem index0_7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)

/-- The input window's block at point `t`, entry `(0, r, d)`, is the input array's entry `(t, r, d)`. -/
theorem xBlock (c : Dev nD) (t : Fin cfg0.N) (y : S1x64x512.Idx) (i : S64x64x512.Idx)
    (h0 : (i 0).val = t.val) (h1 : (i 1).val = (y 1).val) (h2 : (i 2).val = (y 2).val) :
    (iblk m c 0 t : Vec Ideal S1x64x512 .f32) y = (V m c main_arg0 : S64x64x512.Idx → Elt Ideal .f32) i := by
  obtain ⟨e0, e1, e2⟩ := index0_0 t
  have hy0 : (y 0).val < 1 := (y 0).isLt
  unfold iblk
  rw [View.read_apply]
  show V m c main_arg0 _ = V m c main_arg0 _
  congr 1
  funext a
  apply Fin.ext
  match a with
  | ⟨0, _⟩ => show win0_0.index t (0 : Fin 3) * 1 + 1 * (y 0).val = (i 0).val; rw [e0, h0]; omega
  | ⟨1, _⟩ => show win0_0.index t (1 : Fin 3) * 64 + 1 * (y 1).val = (i 1).val; rw [e1, h1]; omega
  | ⟨2, _⟩ => show win0_0.index t (2 : Fin 3) * 512 + 1 * (y 2).val = (i 2).val; rw [e2, h2]; omega

/-- The hidden-state window's block likewise. -/
theorem hBlock (c : Dev nD) (t : Fin cfg0.N) (y : S1x64x512.Idx) (i : S64x64x512.Idx)
    (h0 : (i 0).val = t.val) (h1 : (i 1).val = (y 1).val) (h2 : (i 2).val = (y 2).val) :
    (iblk m c 1 t : Vec Ideal S1x64x512 .f32) y = (V m c main_arg1 : S64x64x512.Idx → Elt Ideal .f32) i := by
  obtain ⟨e0, e1, e2⟩ := index0_1 t
  have hy0 : (y 0).val < 1 := (y 0).isLt
  unfold iblk
  rw [View.read_apply]
  show V m c main_arg1 _ = V m c main_arg1 _
  congr 1
  funext a
  apply Fin.ext
  match a with
  | ⟨0, _⟩ => show win0_1.index t (0 : Fin 3) * 1 + 1 * (y 0).val = (i 0).val; rw [e0, h0]; omega
  | ⟨1, _⟩ => show win0_1.index t (1 : Fin 3) * 64 + 1 * (y 1).val = (i 1).val; rw [e1, h1]; omega
  | ⟨2, _⟩ => show win0_1.index t (2 : Fin 3) * 512 + 1 * (y 2).val = (i 2).val; rw [e2, h2]; omega

/-- The cell-state window's block likewise. -/
theorem cBlock (c : Dev nD) (t : Fin cfg0.N) (y : S1x64x512.Idx) (i : S64x64x512.Idx)
    (h0 : (i 0).val = t.val) (h1 : (i 1).val = (y 1).val) (h2 : (i 2).val = (y 2).val) :
    (iblk m c 2 t : Vec Ideal S1x64x512 .f32) y = (V m c main_arg2 : S64x64x512.Idx → Elt Ideal .f32) i := by
  obtain ⟨e0, e1, e2⟩ := index0_2 t
  have hy0 : (y 0).val < 1 := (y 0).isLt
  unfold iblk
  rw [View.read_apply]
  show V m c main_arg2 _ = V m c main_arg2 _
  congr 1
  funext a
  apply Fin.ext
  match a with
  | ⟨0, _⟩ => show win0_2.index t (0 : Fin 3) * 1 + 1 * (y 0).val = (i 0).val; rw [e0, h0]; omega
  | ⟨1, _⟩ => show win0_2.index t (1 : Fin 3) * 64 + 1 * (y 1).val = (i 1).val; rw [e1, h1]; omega
  | ⟨2, _⟩ => show win0_2.index t (2 : Fin 3) * 512 + 1 * (y 2).val = (i 2).val; rw [e2, h2]; omega

/-- The input-weight window's block at point `t`, entry `(0, d, u)`, is the weight array's entry `(t, d, u)`. -/
theorem kBlock (c : Dev nD) (t : Fin cfg0.N) (y : S1x512x2048.Idx) (i : S64x512x2048.Idx)
    (h0 : (i 0).val = t.val) (h1 : (i 1).val = (y 1).val) (h2 : (i 2).val = (y 2).val) :
    (iblk m c 3 t : Vec Ideal S1x512x2048 .f32) y = (V m c main_arg3 : S64x512x2048.Idx → Elt Ideal .f32) i := by
  obtain ⟨e0, e1, e2⟩ := index0_3 t
  have hy0 : (y 0).val < 1 := (y 0).isLt
  unfold iblk
  rw [View.read_apply]
  show V m c main_arg3 _ = V m c main_arg3 _
  congr 1
  funext a
  apply Fin.ext
  match a with
  | ⟨0, _⟩ => show win0_3.index t (0 : Fin 3) * 1 + 1 * (y 0).val = (i 0).val; rw [e0, h0]; omega
  | ⟨1, _⟩ => show win0_3.index t (1 : Fin 3) * 512 + 1 * (y 1).val = (i 1).val; rw [e1, h1]; omega
  | ⟨2, _⟩ => show win0_3.index t (2 : Fin 3) * 2048 + 1 * (y 2).val = (i 2).val; rw [e2, h2]; omega

/-- The recurrent-weight window's block likewise. -/
theorem rkBlock (c : Dev nD) (t : Fin cfg0.N) (y : S1x512x2048.Idx) (i : S64x512x2048.Idx)
    (h0 : (i 0).val = t.val) (h1 : (i 1).val = (y 1).val) (h2 : (i 2).val = (y 2).val) :
    (iblk m c 4 t : Vec Ideal S1x512x2048 .f32) y = (V m c main_arg4 : S64x512x2048.Idx → Elt Ideal .f32) i := by
  obtain ⟨e0, e1, e2⟩ := index0_4 t
  have hy0 : (y 0).val < 1 := (y 0).isLt
  unfold iblk
  rw [View.read_apply]
  show V m c main_arg4 _ = V m c main_arg4 _
  congr 1
  funext a
  apply Fin.ext
  match a with
  | ⟨0, _⟩ => show win0_4.index t (0 : Fin 3) * 1 + 1 * (y 0).val = (i 0).val; rw [e0, h0]; omega
  | ⟨1, _⟩ => show win0_4.index t (1 : Fin 3) * 512 + 1 * (y 1).val = (i 1).val; rw [e1, h1]; omega
  | ⟨2, _⟩ => show win0_4.index t (2 : Fin 3) * 2048 + 1 * (y 2).val = (i 2).val; rw [e2, h2]; omega

/-- The bias window's block at point `t`, entry `(0, 0, u)`, is the bias array's entry `(t, 0, u)`. -/
theorem bBlock (c : Dev nD) (t : Fin cfg0.N) (y : S1x1x2048.Idx) (i : S64x1x2048.Idx)
    (h0 : (i 0).val = t.val) (h1 : (i 1).val = (y 1).val) (h2 : (i 2).val = (y 2).val) :
    (iblk m c 5 t : Vec Ideal S1x1x2048 .f32) y = (V m c main_arg5 : S64x1x2048.Idx → Elt Ideal .f32) i := by
  obtain ⟨e0, e1, e2⟩ := index0_5 t
  have hy0 : (y 0).val < 1 := (y 0).isLt
  unfold iblk
  rw [View.read_apply]
  show V m c main_arg5 _ = V m c main_arg5 _
  congr 1
  funext a
  apply Fin.ext
  match a with
  | ⟨0, _⟩ => show win0_5.index t (0 : Fin 3) * 1 + 1 * (y 0).val = (i 0).val; rw [e0, h0]; omega
  | ⟨1, _⟩ => show win0_5.index t (1 : Fin 3) * 1 + 1 * (y 1).val = (i 1).val; rw [e1, h1]; omega
  | ⟨2, _⟩ => show win0_5.index t (2 : Fin 3) * 2048 + 1 * (y 2).val = (i 2).val; rw [e2, h2]; omega

/-! ## What each point writes back, the cover, and the run -/

/-- Grid point `t` as a model index. -/
abbrev model (t : Fin cfg0.N) : Fin 64 := ⟨t.val, lt_of_lt_of_eq t.isLt N_0⟩

/-- Entry `(0, r, j)` of point `t`'s block of the hidden-state array is the array's entry `(t, r, j)`. -/
theorem hidden_emb (t : Fin cfg0.N) (r : Fin 64) (j : Fin 512) :
    ((cfg0.win 6).blk t).view.emb (ix3 (0 : Fin 1) r j) = ix3 (model t) r j := by
  obtain ⟨e0, e1, e2⟩ := index0_6 t
  funext a
  apply Fin.ext
  match a with
  | ⟨0, _⟩ => show win0_6.index t (0 : Fin 3) * 1 + 1 * 0 = t.val; rw [e0]; omega
  | ⟨1, _⟩ => show win0_6.index t (1 : Fin 3) * 64 + 1 * r.val = r.val; rw [e1]; omega
  | ⟨2, _⟩ => show win0_6.index t (2 : Fin 3) * 512 + 1 * j.val = j.val; rw [e2]; omega

/-- What point `t` writes back to the hidden-state array is block `t` of `hiddenArr` of the argument arrays. -/
theorem hidden_flushed (c : Dev nD) (t : Fin cfg0.N) :
    (dats m 0 c).flushed 6 t = ((cfg0.win 6).blk t).view.read (Elt Ideal) (hiddenArr (V m c main_arg0) (V m c main_arg1) (V m c main_arg2) (V m c main_arg3) (V m c main_arg4) (V m c main_arg5)) := by
  rw [flushed6]
  refine funext fun (y : S1x64x512.Idx) => ?_
  obtain ⟨z, r, j, rfl⟩ : ∃ (z : Fin 1) (r : Fin 64) (j : Fin 512), y = ix3 z r j := ⟨y 0, y 1, y 2, eq_ix3 y⟩
  obtain rfl : z = 0 := Subsingleton.elim _ _
  show out0_6 (iblk m c 0 t) (iblk m c 1 t) (iblk m c 2 t) (iblk m c 3 t) (iblk m c 4 t) (iblk m c 5 t) (ix3 (0 : Fin 1) r j)
      = hiddenArr (V m c main_arg0) (V m c main_arg1) (V m c main_arg2) (V m c main_arg3) (V m c main_arg4) (V m c main_arg5) (((cfg0.win 6).blk t).view.emb (ix3 (0 : Fin 1) r j))
  rw [hidden_emb t r j]
  exact hidden_point (iblk m c 0 t) (iblk m c 1 t) (iblk m c 2 t) (iblk m c 3 t) (iblk m c 4 t) (iblk m c 5 t)
      (V m c main_arg0) (V m c main_arg1) (V m c main_arg2) (V m c main_arg3) (V m c main_arg4) (V m c main_arg5) (model t)
      (fun r d => xBlock m c t (ix3 (0 : Fin 1) r d) (ix3 (model t) r d) rfl rfl rfl)
      (fun r d => hBlock m c t (ix3 (0 : Fin 1) r d) (ix3 (model t) r d) rfl rfl rfl)
      (fun r j => cBlock m c t (ix3 (0 : Fin 1) r j) (ix3 (model t) r j) rfl rfl rfl)
      (fun d u => kBlock m c t (ix3 (0 : Fin 1) d u) (ix3 (model t) d u) rfl rfl rfl)
      (fun d u => rkBlock m c t (ix3 (0 : Fin 1) d u) (ix3 (model t) d u) rfl rfl rfl)
      (fun u => bBlock m c t (ix3 (0 : Fin 1) (0 : Fin 1) u) (ix3 (model t) (0 : Fin 1) u) rfl rfl rfl)
      r j

/-- An index of the hidden-state array is in point `t`'s block iff each coordinate is in the block's range on its axis. -/
theorem hidden_mem (t : Fin cfg0.N) (i : S64x64x512.Idx) :
    i ∈ ((cfg0.win 6).blk t).view.set ↔ ∀ a : Fin 3, win0_6.index t a * S1x64x512.size a ≤ (i a).val ∧ (i a).val < win0_6.index t a * S1x64x512.size a + S1x64x512.size a := by
  show i ∈ ((View.whole main_v0_0).slice (win0_6.rect t)).set ↔ _
  rw [View.set_slice_whole, Rect.mem_set_unit]
  exact Iff.rfl

/-- The 64 slabs tile the hidden-state array: entry `(t, r, j)` lies in point `t`'s block. -/
theorem hidden_cover (i : S64x64x512.Idx) : ∃ t : Fin cfg0.N, (cfg0.win 6).flush t = true ∧ i ∈ ((cfg0.win 6).blk t).view.set := by
  have hi0 : (i 0).val < 64 := (i 0).isLt
  have hi1 : (i 1).val < 64 := (i 1).isLt
  have hi2 : (i 2).val < 512 := (i 2).isLt
  obtain ⟨t, ht⟩ : ∃ t : Fin cfg0.N, t.val = (i 0).val := ⟨⟨(i 0).val, lt_of_lt_of_eq hi0 N_0.symm⟩, rfl⟩
  obtain ⟨e0, e1, e2⟩ := index0_6 t
  refine ⟨t, flush0_6 t, (hidden_mem t i).mpr fun a => ?_⟩
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 64 ≤ (i 1).val ∧ (i 1).val < win0_6.index t (1 : Fin 3) * 64 + 64; omega
  | ⟨2, _⟩ => show win0_6.index t (2 : Fin 3) * 512 ≤ (i 2).val ∧ (i 2).val < win0_6.index t (2 : Fin 3) * 512 + 512; omega

/-- The hidden-state array after the run is `hiddenArr` of the argument arrays. -/
theorem hidden_final (c : Dev nD) : (dats m 0 c).arrAt 6 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => hidden_flushed m c t) hidden_cover

/-- Entry `(0, r, j)` of point `t`'s block of the cell-state array is the array's entry `(t, r, j)`. -/
theorem cell_emb (t : Fin cfg0.N) (r : Fin 64) (j : Fin 512) :
    ((cfg0.win 7).blk t).view.emb (ix3 (0 : Fin 1) r j) = ix3 (model t) r j := by
  obtain ⟨e0, e1, e2⟩ := index0_7 t
  funext a
  apply Fin.ext
  match a with
  | ⟨0, _⟩ => show win0_7.index t (0 : Fin 3) * 1 + 1 * 0 = t.val; rw [e0]; omega
  | ⟨1, _⟩ => show win0_7.index t (1 : Fin 3) * 64 + 1 * r.val = r.val; rw [e1]; omega
  | ⟨2, _⟩ => show win0_7.index t (2 : Fin 3) * 512 + 1 * j.val = j.val; rw [e2]; omega

/-- What point `t` writes back to the cell-state array is block `t` of `cellArr` of the argument arrays. -/
theorem cell_flushed (c : Dev nD) (t : Fin cfg0.N) :
    (dats m 0 c).flushed 7 t = ((cfg0.win 7).blk t).view.read (Elt Ideal) (cellArr (V m c main_arg0) (V m c main_arg1) (V m c main_arg2) (V m c main_arg3) (V m c main_arg4) (V m c main_arg5)) := by
  rw [flushed7]
  refine funext fun (y : S1x64x512.Idx) => ?_
  obtain ⟨z, r, j, rfl⟩ : ∃ (z : Fin 1) (r : Fin 64) (j : Fin 512), y = ix3 z r j := ⟨y 0, y 1, y 2, eq_ix3 y⟩
  obtain rfl : z = 0 := Subsingleton.elim _ _
  show out0_7 (iblk m c 0 t) (iblk m c 1 t) (iblk m c 2 t) (iblk m c 3 t) (iblk m c 4 t) (iblk m c 5 t) (ix3 (0 : Fin 1) r j)
      = cellArr (V m c main_arg0) (V m c main_arg1) (V m c main_arg2) (V m c main_arg3) (V m c main_arg4) (V m c main_arg5) (((cfg0.win 7).blk t).view.emb (ix3 (0 : Fin 1) r j))
  rw [cell_emb t r j]
  exact cell_point (iblk m c 0 t) (iblk m c 1 t) (iblk m c 2 t) (iblk m c 3 t) (iblk m c 4 t) (iblk m c 5 t)
      (V m c main_arg0) (V m c main_arg1) (V m c main_arg2) (V m c main_arg3) (V m c main_arg4) (V m c main_arg5) (model t)
      (fun r d => xBlock m c t (ix3 (0 : Fin 1) r d) (ix3 (model t) r d) rfl rfl rfl)
      (fun r d => hBlock m c t (ix3 (0 : Fin 1) r d) (ix3 (model t) r d) rfl rfl rfl)
      (fun r j => cBlock m c t (ix3 (0 : Fin 1) r j) (ix3 (model t) r j) rfl rfl rfl)
      (fun d u => kBlock m c t (ix3 (0 : Fin 1) d u) (ix3 (model t) d u) rfl rfl rfl)
      (fun d u => rkBlock m c t (ix3 (0 : Fin 1) d u) (ix3 (model t) d u) rfl rfl rfl)
      (fun u => bBlock m c t (ix3 (0 : Fin 1) (0 : Fin 1) u) (ix3 (model t) (0 : Fin 1) u) rfl rfl rfl)
      r j

/-- An index of the cell-state array is in point `t`'s block iff each coordinate is in the block's range on its axis. -/
theorem cell_mem (t : Fin cfg0.N) (i : S64x64x512.Idx) :
    i ∈ ((cfg0.win 7).blk t).view.set ↔ ∀ a : Fin 3, win0_7.index t a * S1x64x512.size a ≤ (i a).val ∧ (i a).val < win0_7.index t a * S1x64x512.size a + S1x64x512.size a := by
  show i ∈ ((View.whole main_v0_1).slice (win0_7.rect t)).set ↔ _
  rw [View.set_slice_whole, Rect.mem_set_unit]
  exact Iff.rfl

/-- The 64 slabs tile the cell-state array: entry `(t, r, j)` lies in point `t`'s block. -/
theorem cell_cover (i : S64x64x512.Idx) : ∃ t : Fin cfg0.N, (cfg0.win 7).flush t = true ∧ i ∈ ((cfg0.win 7).blk t).view.set := by
  have hi0 : (i 0).val < 64 := (i 0).isLt
  have hi1 : (i 1).val < 64 := (i 1).isLt
  have hi2 : (i 2).val < 512 := (i 2).isLt
  obtain ⟨t, ht⟩ : ∃ t : Fin cfg0.N, t.val = (i 0).val := ⟨⟨(i 0).val, lt_of_lt_of_eq hi0 N_0.symm⟩, rfl⟩
  obtain ⟨e0, e1, e2⟩ := index0_7 t
  refine ⟨t, flush0_7 t, (cell_mem t i).mpr fun a => ?_⟩
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 64 ≤ (i 1).val ∧ (i 1).val < win0_7.index t (1 : Fin 3) * 64 + 64; omega
  | ⟨2, _⟩ => show win0_7.index t (2 : Fin 3) * 512 ≤ (i 2).val ∧ (i 2).val < win0_7.index t (2 : Fin 3) * 512 + 512; omega

/-- The cell-state array after the run is `cellArr` of the argument arrays. -/
theorem cell_final (c : Dev nD) : (dats m 0 c).arrAt 7 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 7 _ (fun t _ => cell_flushed m c t) cell_cover

/-- The kernel's run, read: every weakly fair execution terminates with the hidden-state result at `hiddenArr` and the
    cell-state result at `cellArr` of the argument arrays, the arguments unchanged. -/
theorem run : θ_run defs (onTc (τ := τ) (main (F := Ideal))) ⟨m, fun _ => 0, ρ⟩ fun r => ∀ c : Dev nD,
      r.2.mem ((c : Thread nD τ).loc main_v0_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (hidden_final m c), (h c).2.1.trans (cell_final m c), (h c).2.2⟩)
    (run_blocks m ρ)

end Cert.LstmCell.Kern

end
-- ==== Proof.lean ====
/-
  One step of 64 independent LSTM cells: a kernel that handles one model per grid point against a reference written with
  two batched contractions.

  Both programs compute, for model `t`, batch row `r` and gate column `u`, the pre-activation
      z[t, r, u] = Σ_d x[t, r, d] · k[t, d, u]  +  Σ_d h[t, r, d] · rk[t, d, u]  +  b[t, 0, u]
  (the sums over the 512 features), then
      c'[t, r, j] = σ(z[t, r, 512 + j]) · c[t, r, j] + σ(z[t, r, j]) · tanh(z[t, r, 1024 + j]),
      h'[t, r, j] = σ(z[t, r, 1536 + j]) · tanh(c'[t, r, j]),
  and return `(h', h', c')`. On the extended reals the two agree term by term, with no law beyond reading each operation
  at an index:
  * the kernel narrows its matrix factors to a shorter float format before multiplying; a change of format is the identity;
  * the kernel's matrix product into a zero accumulator and the reference's batched contraction are the same finite sum;
  * the kernel's logistic operation and the reference's spelled-out `1 / (1 + e^(-z))` are one function;
  * the kernel's 64 grid points write the 64 slabs `[t, ·, ·]` of each result, which tile it.
  So neither the order of a sum nor finiteness of an entry is ever used, and the precondition is not opened.

  The modules: `CellSpec` states `z`, `c'`, `h'`; `RefIsSpec` reads the reference's operations as them; `KernelPreact` reads
  the kernel body's pre-activation at an index; `KernelBlocks` goes from one grid point's blocks to the whole arrays and
  restates the kernel's run. Below, the five claims are assembled: the two kernels' frames are their generated frame runs,
  the reference's frame is its generated run with the results dropped, the idealization rewrote nothing, and the two
  value runs end at the same three arrays.
-/
import proofs.«171165_j75385265979695_2_alg».proof.Defs
import proofs.«171165_j75385265979695_2_alg».proof.Proof.Gen.Kernel
import proofs.«171165_j75385265979695_2_alg».proof.Proof.Gen.Kernel.Skeleton
import proofs.«171165_j75385265979695_2_alg».proof.Proof.Gen.Kernel.Launch
import proofs.«171165_j75385265979695_2_alg».proof.Proof.Gen.Kernel.Points
import proofs.«171165_j75385265979695_2_alg».proof.Proof.Gen.Kernel.Frame
import proofs.«171165_j75385265979695_2_alg».proof.Proof.Gen.KernelIdeal
import proofs.«171165_j75385265979695_2_alg».proof.Proof.Gen.KernelIdeal.Skeleton
import proofs.«171165_j75385265979695_2_alg».proof.Proof.Gen.KernelIdeal.Launch
import proofs.«171165_j75385265979695_2_alg».proof.Proof.Gen.KernelIdeal.Points
import proofs.«171165_j75385265979695_2_alg».proof.Proof.Gen.KernelIdeal.Frame
import proofs.«171165_j75385265979695_2_alg».proof.Proof.Gen.ReferenceIdeal
import proofs.«171165_j75385265979695_2_alg».proof.Proof.Gen.Pre_finite_inputs
import proofs.«171165_j75385265979695_2_alg».proof.Proof.Gen.KernelIdeal.Value
import proofs.«171165_j75385265979695_2_alg».proof.Proof.Gen.ReferenceIdeal.Run
import proofs.«171165_j75385265979695_2_alg».proof.Proof.Gen.ReferenceIdeal.Read
import proofs.«171165_j75385265979695_2_alg».proof.Proof.CellSpec
import proofs.«171165_j75385265979695_2_alg».proof.Proof.RefIsSpec
import proofs.«171165_j75385265979695_2_alg».proof.Proof.KernelPreact
import proofs.«171165_j75385265979695_2_alg».proof.Proof.KernelBlocks
import Idealize.ShloMosaic.Adequacy
import Idealize.ShloMosaic.Init

noncomputable section

namespace Cert.Proof

open Idealize.ShloMosaic Idealize.SL.Sem Cert.LstmCell

/-- The word-level kernel runs and leaves its arguments unchanged: its generated frame run. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its generated run, the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the six arguments, the kernel ends with its two result arrays at `hiddenArr` and
    `cellArr` of the arguments, and the reference with its hidden-state and cell-state stages, which are the same two
    functions of the same arguments; the results `(h', h', c')` are paired by position. -/
theorem algebraic : Cert.algebraic_KernelIdeal_ReferenceIdeal := by
  intro m ρ m' ρ' _ hagree
  refine ⟨fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), fun c => cellArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun _ h c => ⟨(h c).1, (h c).1, (h c).2⟩) (Cert.LstmCell.Kern.run m ρ)
  · refine (θ_run Cert.ReferenceIdeal.defs _ _).mono (fun _ h c => ?_) (Cert.ReferenceIdeal.Value.run (F := Ideal) m' ρ')
    obtain ⟨a0, a1, a2, a3, a4, a5⟩ := hagree c
    refine ⟨(h c).1.trans ?_, (h c).2.1.trans ?_, (h c).2.2.1.trans ?_, (h c).2.2.2⟩
    · rw [Cert.ReferenceIdeal.Read.val_main_v32_eq, Cert.LstmCell.Ref.hidden_eq, a0, a1, a2, a3, a4, a5]
    · rw [Cert.ReferenceIdeal.Read.val_main_v32_eq, Cert.LstmCell.Ref.hidden_eq, a0, a1, a2, a3, a4, a5]
    · rw [Cert.ReferenceIdeal.Read.val_main_v24_eq, Cert.LstmCell.Ref.cell_eq, a0, a1, a2, a3, a4, a5]

/-- The certificate's claim: the three frames, the idealization's ledger (empty: the program's own text read on the
    extended reals), and the equality of results. -/
theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
